-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x8192x1024 .f32) (main_arg1 : FVec F S1024x1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8x8192x1024 : Shape := ⟨3, ![8, 8192, 1024]⟩
abbrev S1024x1024 : Shape := ⟨2, ![1024, 1024]⟩
abbrev S_ : Shape := ⟨0, ![]⟩
abbrev S65536x1024 : Shape := ⟨2, ![65536, 1024]⟩

abbrev nBuf : Space → Nat
  | .hbm => 27
  | .vmem => 5
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .bf16⟩
  | .hbm, ⟨24, _⟩ => ⟨S65536x1024, .f32⟩
  | .hbm, ⟨25, _⟩ => ⟨S65536x1024, .f32⟩
  | .hbm, ⟨26, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bitsLt_bf16_f32 : FTy.bits .bf16 < FTy.bits .f32
  transposes_S1024x1024_S1024x1024_1_0 : S1024x1024.Transposes [1, 0] S1024x1024
  shapeCasts_S8x8192x1024_S65536x1024 : S8x8192x1024.ShapeCasts S65536x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S65536x1024_S8x8192x1024 : S65536x1024.ShapeCasts S8x8192x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  dot_S8x8192x1024_S1024x1024_S8x8192x1024_2_1_01_0_n_n_wf : DotDims.WF S8x8192x1024 S1024x1024 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Payload.lean ====
/-
  The arithmetic of one grid point. The body loads a [1024, 1024] block of rows and the [1024, 1024] weight
  block, and stores their matrix product accumulated from zero. Over the extended reals that product, at entry
  (p, q), is the plain sum over k of (row p at k) · (weight block at (k, q)): the change of float format on the way in
  is the identity, and the zero accumulator adds nothing.
-/
import proofs.«145866_j5111011082882_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx

/-- The left operand of the block product is read at (row of the output entry, contracted position). -/
theorem lhs_row (j : S1024x1024.Idx) (Q : dot_S1024x1024_S1024x1024_S1024x1024_1_0_0_1_n_n.contr.Idx) :
    (dot_S1024x1024_S1024x1024_S1024x1024_1_0_0_1_n_n.lhsIdx j Q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_contr (j : S1024x1024.Idx) (Q : dot_S1024x1024_S1024x1024_S1024x1024_1_0_0_1_n_n.contr.Idx) :
    (dot_S1024x1024_S1024x1024_S1024x1024_1_0_0_1_n_n.lhsIdx j Q 1).val = (Q ⟨0, by decide⟩).val :=
  dot_S1024x1024_S1024x1024_S1024x1024_1_0_0_1_n_n.lhsIdx_val_of_single rfl j Q
/-- The right operand is read at (contracted position, column of the output entry). -/
theorem rhs_contr (j : S1024x1024.Idx) (Q : dot_S1024x1024_S1024x1024_S1024x1024_1_0_0_1_n_n.contr.Idx) :
    (dot_S1024x1024_S1024x1024_S1024x1024_1_0_0_1_n_n.rhsIdx j Q 0).val = (Q ⟨0, by decide⟩).val :=
  dot_S1024x1024_S1024x1024_S1024x1024_1_0_0_1_n_n.rhsIdx_val_of_single rfl j Q
theorem rhs_col (j : S1024x1024.Idx) (Q : dot_S1024x1024_S1024x1024_S1024x1024_1_0_0_1_n_n.contr.Idx) :
    (dot_S1024x1024_S1024x1024_S1024x1024_1_0_0_1_n_n.rhsIdx j Q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- One grid point's stored value, entry by entry: the product of the loaded block of rows with the loaded
    weight block, accumulated from zero, is at entry (p, q) the sum over k of row p at k times column q at k.
    Rounding the rows to bf16 on the way in changes nothing over the extended reals. -/
theorem pay_apply (x0 : Vec Ideal S1024x1024 .f32) (x1 : Vec Ideal S1024x1024 .bf16) (p q : Fin 1024) :
    k0_pay1 (F := Ideal) x0 x1 (ix2 p q) = ∑ k : Fin 1024, x0 (ix2 p k) * x1 (ix2 k q) := by
  unfold k0_pay1
  rw [shapeCast_self, shapeCast_self]
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_contr _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_contr _ _).trans hk
      | ⟨1, _⟩ => exact rhs_col _ _)
  rw [el, er]
  rfl

/-- The same at any entry of the block, its two coordinates named. -/
theorem pay_at (x0 : Vec Ideal S1024x1024 .f32) (x1 : Vec Ideal S1024x1024 .bf16) (y : S1024x1024.Idx) :
    k0_pay1 (F := Ideal) x0 x1 y
      = ∑ k : Fin 1024, x0 (ix2 (⟨(y 0).val, idx2_lt0 y⟩ : Fin 1024) k) * x1 (ix2 k (⟨(y 1).val, idx2_lt1 y⟩ : Fin 1024)) := by
  obtain ⟨p, q, rfl⟩ : ∃ (p q : Fin 1024), y = ix2 p q :=
    ⟨⟨(y 0).val, idx2_lt0 y⟩, ⟨(y 1).val, idx2_lt1 y⟩, funext fun a => by
      match a with
      | ⟨0, _⟩ => rfl
      | ⟨1, _⟩ => rfl⟩
  exact pay_apply x0 x1 p q

end Cert.KernelIdeal.Bridge

end
-- ==== Proof.Blocks.lean ====
/-
  From grid points to the whole product. The grid has 64 points; point t takes rows 1024·t … 1024·t + 1023 of
  the [65536, 1024] row matrix (all 1024 columns), the whole [1024, 1024] weight matrix, and writes rows
  1024·t … 1024·t + 1023 of the output. So what point t writes back is the block, at those rows, of ONE function of
  the two matrices as the region finds them: entry (r, o) is the sum over k of (row r at k) · (weights at (k, o)).
  The 64 row blocks cover the output, so after the run the output array is that function.
-/
import proofs.«145866_j5111011082882_1_alg».proof.Proof.Gen.KernelIdeal.Frame
import proofs.«145866_j5111011082882_1_alg».proof.Proof.Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The product of a [65536, 1024] row matrix with a [1024, 1024] matrix, entry by entry. -/
def rowsTimes (X : Vec Ideal S65536x1024 .f32) (Wt : Vec Ideal S1024x1024 .bf16) : Vec Ideal S65536x1024 .f32 :=
  fun i => ∑ k : Fin 1024, X (ix2 (⟨(i 0).val, idx2_lt0 i⟩ : Fin 65536) k) * Wt (ix2 k (⟨(i 1).val, idx2_lt1 i⟩ : Fin 1024))

/-- Where the three windows sit at point t: the rows and the output at block row t, first block column; the
    weights always at their one block. Decided over the 64 points. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 1024·t … of the row matrix. -/
theorem rows_block (c : Dev nD) (t : Fin cfg0.N) (x : S1024x1024.Idx) (i : S65536x1024.Idx)
    (h0 : (i 0).val = 1024 * t.val + (x 0).val) (h1 : (i 1).val = (x 1).val) :
    (iblk m c 0 t : Vec Ideal S1024x1024 .f32) x = (V m c main_v12 : Vec Ideal S65536x1024 .f32) i := by
  obtain ⟨e0, e1, -⟩ := block_positions t
  unfold iblk
  rw [View.read_apply]
  show V m c main_v12 _ = V m c main_v12 _
  refine congrArg (V m c main_v12) (funext fun a => Fin.ext ?_)
  match a with
  | ⟨0, _⟩ => show win0_0.index t (0 : Fin 2) * 1024 + 1 * (x 0).val = (i 0).val; rw [e0, h0]; omega
  | ⟨1, _⟩ => show win0_0.index t (1 : Fin 2) * 1024 + 1 * (x 1).val = (i 1).val; rw [e1, h1]; omega

/-- The weight window's block at any point is the whole weight matrix. -/
theorem weights_block (c : Dev nD) (t : Fin cfg0.N) (x : S1024x1024.Idx) (i : S1024x1024.Idx)
    (h0 : (i 0).val = (x 0).val) (h1 : (i 1).val = (x 1).val) :
    (iblk m c 1 t : Vec Ideal S1024x1024 .bf16) x = (V m c main_v11 : Vec Ideal S1024x1024 .bf16) i := by
  obtain ⟨-, -, e2, e3, -⟩ := block_positions t
  unfold iblk
  rw [View.read_apply]
  show V m c main_v11 _ = V m c main_v11 _
  refine congrArg (V m c main_v11) (funext fun a => Fin.ext ?_)
  match a with
  | ⟨0, _⟩ => show win0_1.index t (0 : Fin 2) * 1024 + 1 * (x 0).val = (i 0).val; rw [e2, h0]; omega
  | ⟨1, _⟩ => show win0_1.index t (1 : Fin 2) * 1024 + 1 * (x 1).val = (i 1).val; rw [e3, h1]; omega

/-- Entry y of what point t stores is entry (1024·t + y₀, y₁) of the whole product. -/
theorem stored_entry (c : Dev nD) (t : Fin cfg0.N) (y : S1024x1024.Idx) (i : S65536x1024.Idx)
    (h0 : (i 0).val = 1024 * t.val + (y 0).val) (h1 : (i 1).val = (y 1).val) :
    k0_pay1 (F := Ideal) (iblk m c 0 t) (iblk m c 1 t) y = rowsTimes (V m c main_v12) (V m c main_v11) i := by
  refine (pay_at (iblk m c 0 t) (iblk m c 1 t) y).trans ?_
  unfold rowsTimes
  refine Finset.sum_congr rfl fun k _ => ?_
  rw [rows_block m c t (ix2 (⟨(y 0).val, idx2_lt0 y⟩ : Fin 1024) k) (ix2 (⟨(i 0).val, idx2_lt0 i⟩ : Fin 65536) k) h0 rfl,
    weights_block m c t (ix2 k (⟨(y 1).val, idx2_lt1 y⟩ : Fin 1024)) (ix2 k (⟨(i 1).val, idx2_lt1 i⟩ : Fin 1024)) rfl h1]

/-- What point t writes back is its block of the whole product. -/
theorem flushed_eq (c : Dev nD) (t : Fin cfg0.N) :
    (dats m 0 c).flushed 2 t
      = ((cfg0.win 2).blk t).view.read (Elt Ideal) (rowsTimes (V m c main_v12) (V m c main_v11)) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨-, -, -, -, e4, e5⟩ := block_positions t
  funext j
  refine stored_entry m c t j _ ?_ ?_
  · show win0_2.index t (0 : Fin 2) * 1024 + 1 * (j 0).val = 1024 * t.val + (j 0).val
    rw [e4]; omega
  · show win0_2.index t (1 : Fin 2) * 1024 + 1 * (j 1).val = (j 1).val
    rw [e5]; omega

/-- An index of the output is in point t's block iff each coordinate is in the block's range on its axis. -/
theorem mem_blk (t : Fin cfg0.N) (i : S65536x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v13).slice (win0_2.rect t)).set ↔ _
  rw [View.set_slice_whole, Rect.mem_set_unit]
  exact Iff.rfl

/-- Row r of the output lies in the block of point r / 1024. -/
theorem covered (i : S65536x1024.Idx) :
    ∃ t : Fin cfg0.N, (cfg0.win 2).flush t = true ∧ i ∈ ((cfg0.win 2).blk t).view.set := by
  have hi0 : (i 0).val < 65536 := idx2_lt0 i
  have hi1 : (i 1).val < 1024 := idx2_lt1 i
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, e4, e5⟩ := block_positions t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5]; omega

/-- The output array after the run is the whole product of the two matrices as the region finds them. -/
theorem product_array (c : Dev nD) :
    (dats m 0 c).arrAt 2 cfg0.N = rowsTimes (V m c main_v12) (V m c main_v11) :=
  (dats m 0 c).arrAt_eq_of_cover 2 _ (fun t _ => flushed_eq m c t) covered

end Cert.KernelIdeal.Bridge

end
-- ==== Proof.HostSide.lean ====
/-
  The two matrices the region finds, and what the program does with the region's output.
  Before the region the program re-lays the argument x : [8, 8192, 1024] as 65536 rows of 1024, and computes the
  weight matrix: the scale s = max(mean |w|, ε), the ternary matrix clip(round(w / s), −1, 1), that matrix times s,
  rounded to bf16 (the identity over the extended reals) and transposed. The reference computes the same scaled
  ternary matrix, operation for operation, untransposed; so the kernel's weight matrix at (k, o) is the reference's
  at (o, k). After the region the program re-lays the [65536, 1024] output as [8, 8192, 1024].
-/
import proofs.«145866_j5111011082882_1_alg».proof.Proof.Gen.KernelIdeal.Frame
import proofs.«145866_j5111011082882_1_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ) (ρ : Dev nD → PrngReg)

/-- Row b·8192 + s of the row matrix, at column k, is x at (b, s, k). -/
theorem rows_at (c : Dev nD) (b : Fin 8) (s : Fin 8192) (k : Fin 1024) (r : Fin 65536) (hr : r.val = b.val * 8192 + s.val) :
    (V m c main_v12 : Vec Ideal S65536x1024 .f32) (ix2 r k)
      = (m ((c : Thread nD τ).loc main_arg0) : Vec Ideal S8x8192x1024 .f32) (ix3 b s k) := by
  dsimp only [V, V0]
  simp only [hostOps0, hostOps0_1, hostOps0_2, hostOps0_3, hostOps0_4, List.flatten_cons, List.flatten_nil, List.append_nil,
    List.cons_append, List.nil_append]
  after_results
  show shapeCast S65536x1024 (m ((c : Thread nD τ).loc main_arg0)) shapeCasts_S8x8192x1024_S65536x1024 (ix2 r k) = _
  refine shapeCast_apply _ _ (ix2 r k) (ix3 b s k) ?_
  rw [Shape.rowMajor_val_three, Shape.rowMajor_val_two]
  show (b.val * 8192 + s.val) * 1024 + k.val = r.val * 1024 + k.val
  rw [hr]

/-- The kernel's weight matrix at (k, o) is the reference's scaled ternary matrix at (o, k). -/
theorem weights_at (c : Dev nD) (k o : Fin 1024) :
    (V m c main_v11 : Vec Ideal S1024x1024 .bf16) (ix2 k o)
      = Cert.ReferenceIdeal.Read.val_main_v13 (F := Ideal) (m ((c : Thread nD τ).loc main_arg1)) (ix2 o k) := by
  dsimp only [V, V0]
  simp only [hostOps0, hostOps0_1, hostOps0_2, hostOps0_3, hostOps0_4, List.flatten_cons, List.flatten_nil, List.append_nil,
    List.cons_append, List.nil_append]
  after_results
  refine (transpose_apply _ _ _ (ix2 k o) (ix2 o k) ?_).trans ?_
  · intro a
    match a with
    | ⟨0, _⟩ => rfl
    | ⟨1, _⟩ => rfl
  · rfl

/-- The result at (b, s, o) is the region's output array at row b·8192 + s, column o. -/
theorem result_at (c : Dev nD) (b : Fin 8) (s : Fin 8192) (o : Fin 1024) (r : Fin 65536) (hr : r.val = b.val * 8192 + s.val) :
    (Pipeline.afterTail₀ cfgs (dats m) 0 (V0 m) [hostOps1] c main_v14 : Vec Ideal S8x8192x1024 .f32) (ix3 b s o)
      = ((dats m 0 c).arrAt 2 cfg0.N : Vec Ideal S65536x1024 .f32) (ix2 r o) := by
  unfold Pipeline.afterTail₀
  show StableHlo.after hostOps1 _ (Proc.devRef .tc main_v14) _ = _
  after_results
  have hw : Pipeline.withArrays (cfgs 0).spec c (V0 m c) (fun w => (dats m 0 c).arrAt w (cfgs 0).N)
      (Proc.devRef .tc main_v13) = (dats m 0 c).arrAt 2 cfg0.N :=
    Pipeline.withArrays_arr spec0 launch0.win.arr_inj c _ _ 2
  show shapeCast S8x8192x1024 (Pipeline.withArrays (cfgs 0).spec c (V0 m c) (fun w => (dats m 0 c).arrAt w (cfgs 0).N)
      (Proc.devRef .tc main_v13)) shapeCasts_S65536x1024_S8x8192x1024 (ix3 b s o) = _
  rw [hw]
  refine shapeCast_apply _ _ (ix3 b s o) (ix2 r o) ?_
  rw [Shape.rowMajor_val_three, Shape.rowMajor_val_two]
  show r.val * 1024 + o.val = (b.val * 8192 + s.val) * 1024 + o.val
  rw [hr]

end Cert.KernelIdeal.Bridge

end
-- ==== Proof.KernelValue.lean ====
/-
  The kernel program's result as one function of its arguments, over the extended reals.
  Entry (b, s, o) of the result is the region's output at row b·8192 + s, column o; that is the sum over k of
  (row b·8192 + s of the row matrix, at k) · (the kernel's weight matrix at (k, o)); the row is x at (b, s, ·) and the
  weight is the scaled ternary matrix at (o, k). So the result at (b, s, o) is Σ_k x(b, s, k) · Wq(o, k), which is
  what the reference's contraction of x with the scaled ternary matrix Wq over their last axes computes. Both sums
  run over k in the same order: no law of the extended reals beyond rewriting equal terms is used, and the inputs'
  finiteness is not needed.
-/
import proofs.«145866_j5111011082882_1_alg».proof.Proof.Blocks
import proofs.«145866_j5111011082882_1_alg».proof.Proof.HostSide

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ) (ρ : Dev nD → PrngReg)

/-- The whole product at row r, column o. -/
theorem rowsTimes_at (X : Vec Ideal S65536x1024 .f32) (Wt : Vec Ideal S1024x1024 .bf16) (r : Fin 65536) (o : Fin 1024) :
    rowsTimes X Wt (ix2 r o) = ∑ k : Fin 1024, X (ix2 r k) * Wt (ix2 k o) := rfl

/-- Entry by entry, the kernel program's result is the reference's contraction of the arguments. -/
theorem result_entry (c : Dev nD) (i : S8x8192x1024.Idx) :
    (Pipeline.afterTail₀ cfgs (dats m) 0 (V0 m) [hostOps1] c main_v14 : Vec Ideal S8x8192x1024 .f32) i
      = Cert.ReferenceIdeal.Read.val_main_v14 (F := Ideal) (m ((c : Thread nD τ).loc main_arg0))
          (m ((c : Thread nD τ).loc main_arg1)) i := by
  obtain ⟨b, s, o, rfl⟩ : ∃ (b : Fin 8) (s : Fin 8192) (o : Fin 1024), i = ix3 b s o :=
    ⟨⟨(i 0).val, (i 0).isLt⟩, ⟨(i 1).val, (i 1).isLt⟩, ⟨(i 2).val, (i 2).isLt⟩, funext fun a => by
      match a with
      | ⟨0, _⟩ => rfl
      | ⟨1, _⟩ => rfl
      | ⟨2, _⟩ => rfl⟩
  have hr : b.val * 8192 + s.val < 65536 := by have := b.isLt; have := s.isLt; omega
  rw [Cert.ReferenceIdeal.Read.val_main_v14_apply, result_at m c b s o ⟨b.val * 8192 + s.val, hr⟩ rfl, product_array, rowsTimes_at]
  show @Eq EReal _ _
  refine Finset.sum_congr rfl fun k _ => ?_
  rw [rows_at m c b s k ⟨b.val * 8192 + s.val, hr⟩ rfl, weights_at m c k o]
  have el : Cert.ReferenceIdeal.Read.lidx_main_v14 (ix3 b s o) k = ix3 b s k := funext fun a => by
    match a with
    | ⟨0, _⟩ => rfl
    | ⟨1, _⟩ => rfl
    | ⟨2, _⟩ => rfl
  have er : Cert.ReferenceIdeal.Read.ridx_main_v14 (ix3 b s o) k = ix2 o k := funext fun a => by
    match a with
    | ⟨0, _⟩ => rfl
    | ⟨1, _⟩ => rfl
  rw [el, er]

/-- Every weakly fair execution of the kernel program ends with its result at the reference's contraction of the
    arguments as launched, and the arguments unchanged. -/
theorem run : θ_run defs (onTc (τ := τ) (main (F := Ideal))) ⟨m, fun _ => 0, ρ⟩ fun r => ∀ c : Dev nD,
      r.2.mem ((c : Thread nD τ).loc main_v14)
        = Cert.ReferenceIdeal.Read.val_main_v14 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v14 (Pipeline.mem_restRefs_of main_v14 (by decide) (by decide))).trans (funext fun i => result_entry m c i),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Bridge

end
-- ==== Proof.lean ====
/-
  The kernel multiplies 65536 rows of 1024 numbers by a 1024 × 1024 weight matrix on a grid of 64 row blocks; the
  weights are the argument w turned ternary — clip(round(w / s), −1, 1) with s = max(mean |w|, ε) — and scaled
  back by s, computed by the program around the kernel, which also re-lays x : [8, 8192, 1024] as the 65536 rows and
  the output back. The reference contracts x with the same scaled ternary matrix over their last axes.
  Over the extended reals both results are, at (b, s, o), the sum over k of x(b, s, k) · Wq(o, k) with Wq the one
  scaled ternary matrix (Proof/KernelValue.lean): the frames are the generated ones (the reference's is its generated
  run with the result dropped), the idealization rewrote nothing, and the two programs' results are one function of
  arguments that agree.
-/
import proofs.«145866_j5111011082882_1_alg».proof.Defs
import proofs.«145866_j5111011082882_1_alg».proof.Proof.Gen.Kernel
import proofs.«145866_j5111011082882_1_alg».proof.Proof.Gen.Kernel.Frame
import proofs.«145866_j5111011082882_1_alg».proof.Proof.Gen.KernelIdeal
import proofs.«145866_j5111011082882_1_alg».proof.Proof.Gen.KernelIdeal.Frame
import proofs.«145866_j5111011082882_1_alg».proof.Proof.Gen.ReferenceIdeal
import proofs.«145866_j5111011082882_1_alg».proof.Proof.Gen.ReferenceIdeal.Run
import proofs.«145866_j5111011082882_1_alg».proof.Proof.Gen.ReferenceIdeal.Read
import proofs.«145866_j5111011082882_1_alg».proof.Proof.Gen.Pre_finite_inputs
import proofs.«145866_j5111011082882_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the contraction of x with the scaled ternary matrix: the kernel program by
    `Cert.KernelIdeal.Bridge.run`, the reference by its run, whose term is that contraction of its own arguments,
    which agree with the kernel program's. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Read.val_main_v14_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
